-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 85
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x40, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x40, .f32⟩
  | .hbm, ⟨76, _⟩ => ⟨S850000x1, .f32⟩
  | .hbm, ⟨77, _⟩ => ⟨S850000x40, .f32⟩
  | .hbm, ⟨78, _⟩ => ⟨S850000x40, .f32⟩
  | .hbm, ⟨79, _⟩ => ⟨S_, .f32⟩
  | .hbm, ⟨80, _⟩ => ⟨S50000x40, .f32⟩
  | .hbm, ⟨81, _⟩ => ⟨S850000x1, .i32⟩
  | .hbm, ⟨82, _⟩ => ⟨S50000x40, .f32⟩
  | .hbm, ⟨83, _⟩ => ⟨S1x40, .f32⟩
  | .hbm, ⟨84, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x40, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x40, .f32⟩
  | .hbm, ⟨80, _⟩ => ⟨S850000x1, .f32⟩
  | .hbm, ⟨81, _⟩ => ⟨S850000x40, .f32⟩
  | .hbm, ⟨82, _⟩ => ⟨S850000x40, .f32⟩
  | .hbm, ⟨83, _⟩ => ⟨S_, .f32⟩
  | .hbm, ⟨84, _⟩ => ⟨S50000x40, .f32⟩
  | .hbm, ⟨85, _⟩ => ⟨S850000x1, .i32⟩
  | .hbm, ⟨86, _⟩ => ⟨S50000x40, .f32⟩
  | .hbm, ⟨87, _⟩ => ⟨S1x40, .f32⟩
  | .hbm, ⟨88, _⟩ => ⟨S50000x40, .f32⟩
  | .hbm, ⟨89, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The kernel program's run with the result named. Its @main is nine segments — stretches of host operations and four
  kernel launches — and the buffer contents at each segment's boundary are a fold from the launch memory (`Gen.W0` … `Gen.W9`).
  Every weakly fair execution terminates, nothing faulting, and in the final state every unscoped buffer of each core
  holds the last boundary's contents `Gen.W9`: in particular the result buffer, while the argument buffers hold what they
  were launched with: the launch over the segments ends in a thread state that holds every unscoped buffer at `Gen.W9`, and
  the final state is read against it, the result buffer beside the arguments.
-/
import proofs.«140125_j5557687681608_1_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates with the result buffer at the last boundary's contents
    and the arguments as launched. -/
theorem run_main : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Spec.lean ====
/-
  The dense layers of a two-layer graph convolution, as whole-array functions at the ideal instance.

  A graph-convolution layer is  out = segment_sum(norm ⊙ (X·W)[row], col) + b : a matrix product, a gather of its rows
  along the edges, a scaling by the edge's normalisation, a scatter-add of the scaled rows into their target nodes, and
  a bias row added to every node (followed, in the first layer, by max(·, 0)). The gather, the scaling and the scatter-add
  are host operations shared by both programs; what differs is who computes the matrix product and the bias stage. This
  module states those two as functions of whole arrays, index by index, over the extended reals:

  `mm X W`        entry (p, q) is the sum over k of X (p, k) · W (k, q);
  `rowBias A B`   entry (p, q) is A (p, q) + B (0, q), the one row B added to every row of A;
  `rowBiasRelu`   the same followed by the maximum with the zero word's value.

  Each comes with its reading at an index given by coordinates.
-/
import Idealize.ShloMosaic.PureOps.Ideal
import Idealize.ShloMosaic.Lib.ValueIdx

noncomputable section

open scoped BigOperators

namespace Cert.Gcn

open Idealize.ShloMosaic Idealize.ShloMosaic.ValueIdx

variable {a n b : ℕ}

/-- The row coordinate of an index of an [a, b] array, as a number below a. -/
abbrev row (i : (⟨2, ![a, b]⟩ : Shape).Idx) : Fin a := ⟨(i 0).val, (i 0).isLt⟩
/-- The column coordinate of an index of an [a, b] array, as a number below b. -/
abbrev col (i : (⟨2, ![a, b]⟩ : Shape).Idx) : Fin b := ⟨(i 1).val, (i 1).isLt⟩

/-- The matrix product of an [a, n] by an [n, b] array over the extended reals. -/
def mm (X : (⟨2, ![a, n]⟩ : Shape).Idx → EReal) (W : (⟨2, ![n, b]⟩ : Shape).Idx → EReal) :
    (⟨2, ![a, b]⟩ : Shape).Idx → EReal :=
  fun i => ∑ k : Fin n, X (ix2 (row i) k) * W (ix2 k (col i))

theorem mm_apply (X : (⟨2, ![a, n]⟩ : Shape).Idx → EReal) (W : (⟨2, ![n, b]⟩ : Shape).Idx → EReal) (p : Fin a) (q : Fin b) :
    mm X W (ix2 p q) = ∑ k : Fin n, X (ix2 p k) * W (ix2 k q) := rfl

/-- One row added to every row of an array. -/
def rowBias (A : (⟨2, ![a, b]⟩ : Shape).Idx → EReal) (B : (⟨2, ![1, b]⟩ : Shape).Idx → EReal) :
    (⟨2, ![a, b]⟩ : Shape).Idx → EReal :=
  fun i => A i + B (ix2 (0 : Fin 1) (col i))

theorem rowBias_apply (A : (⟨2, ![a, b]⟩ : Shape).Idx → EReal) (B : (⟨2, ![1, b]⟩ : Shape).Idx → EReal) (p : Fin a) (q : Fin b) :
    rowBias A B (ix2 p q) = A (ix2 p q) + B (ix2 (0 : Fin 1) q) := rfl

/-- One row added to every row of an array, then the maximum with the value of the zero word. -/
def rowBiasRelu (A : (⟨2, ![a, b]⟩ : Shape).Idx → EReal) (B : (⟨2, ![1, b]⟩ : Shape).Idx → EReal) :
    (⟨2, ![a, b]⟩ : Shape).Idx → EReal :=
  fun i => max (A i + B (ix2 (0 : Fin 1) (col i))) (Ideal.ofBits .f32 0x00000000#32)

theorem rowBiasRelu_apply (A : (⟨2, ![a, b]⟩ : Shape).Idx → EReal) (B : (⟨2, ![1, b]⟩ : Shape).Idx → EReal) (p : Fin a) (q : Fin b) :
    rowBiasRelu A B (ix2 p q) = max (A (ix2 p q) + B (ix2 (0 : Fin 1) q)) (Ideal.ofBits .f32 0x00000000#32) := rfl

end Cert.Gcn

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Reg0.lean ====
/-
  Region 0 of the kernel's program is a matrix product computed block by block: grid point t takes rows
  5000·t … 5000·t + 4999 of the left operand and the whole right operand, and writes the product of the two as rows
  5000·t … 5000·t + 4999 of the result. Entry (r, q) of a block's product is the sum over k of the block's (r, k) times
  the right operand's (k, q), the rounding of the operands to a narrower format being the identity over the extended reals;
  the block's row r is the array's row 5000·t + r, so every block is the restriction of ONE function of the whole arrays,
  the matrix product `Gcn.mm`, and the ten blocks cover the result: after the region the result array is that product.
-/
import proofs.«140125_j5557687681608_1_alg».proof.Proof.Gen.KernelIdeal.Frame
import proofs.«140125_j5557687681608_1_alg».proof.Proof.Spec
import proofs.«140125_j5557687681608_1_alg».proof.Proof.LibMatmulAt
import Idealize.ShloMosaic.Lib.Pipeline.Value
import Idealize.ShloMosaic.Lib.ValueIdx
import Idealize.ShloMosaic.PureOps.Ideal.Laws

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

/-- The contraction of the block product: the left operand's second axis against the right operand's first. -/
abbrev D : DotDims S5000x128 S128x128 S5000x128 := dot_S5000x128_S128x128_S5000x128_1_0_0_1_n_n

theorem hz : (![0, 0] : Fin 2 → Nat) = fun _ => 0 := funext fun a => by fin_cases a <;> rfl

/-! ## Where the two operand indices of the contraction sit -/

theorem lhs_0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (i : S5000x128.Idx) (q : D.contr.Idx) : (D.lhsIdx i q 1).val = (q ⟨0, by decide⟩).val :=
  D.lhsIdx_val_of_single rfl i q
theorem rhs_0 (i : S5000x128.Idx) (q : D.contr.Idx) : (D.rhsIdx i q 0).val = (q ⟨0, by decide⟩).val :=
  D.rhsIdx_val_of_single rfl i q
theorem rhs_1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-! ## The body's payload at an entry -/

/-- Entry (p, q) of what the body stores: the sum over k of the left block's (p, k) times the right operand's (k, q). -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact MatmulAt.matmul_zero_ix2 D rfl rfl lhs_0 lhs_1 rhs_0 rhs_1 none
    (truncf .bf16 x0 bitsLt_bf16_f32) (truncf .bf16 x1 bitsLt_bf16_f32) p q

/-- A block's payload is the whole product read where the block sits: when the left block's row r is the left array's row
    o·5000 + r and the right block is the right array, the payload at y is the product at any index i with
    i = (o·5000 + y₀, y₁). -/
theorem block_eq (X : S50000x128.Idx → EReal) (W : S128x128.Idx → EReal) (x0 : Vec Ideal S5000x128 .f32) (x1 : Vec Ideal S128x128 .f32) (o : ℕ)
    (hx0 : ∀ (y : S5000x128.Idx) (i : S50000x128.Idx), (i 0).val = o * 5000 + (y 0).val → (i 1).val = (y 1).val → x0 y = X i)
    (hx1 : ∀ y : S128x128.Idx, x1 y = W y)
    (y : S5000x128.Idx) (i : S50000x128.Idx) (hi0 : (i 0).val = o * 5000 + (y 0).val) (hi1 : (i 1).val = (y 1).val) :
    k0_pay1 (F := Ideal) x0 x1 y = Gcn.mm X W i := by
  obtain ⟨p, q, rfl⟩ : ∃ (p : Fin 5000) (q : Fin 128), y = ix2 p q := ⟨y 0, y 1, eq_ix2 y⟩
  rw [pay_apply]
  unfold Gcn.mm
  refine Finset.sum_congr rfl fun k _ => ?_
  rw [hx0 (ix2 p k) (ix2 (Gcn.row i) k) hi0 rfl, hx1]
  have hq : Gcn.col i = q := Fin.ext hi1
  rw [hq]

/-! ## From the blocks to the array -/

variable (V : (c : Dev nD) → (b : Ref sig .tc) → Buf (Elt Ideal) ((c : Thread nD τ).loc b))

/-- The printed index maps over the grid: the left operand's and the result's block move down one block of rows per point;
    the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed_eq (c : Dev nD) (t : Fin cfg0.N) :
    (dat0 V c).flushed 2 t = ((cfg0.win 2).blk t).view.read (Elt Ideal) (Gcn.mm (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) ((cfg0.win 2).xinj (grid0.coords t) j)
    = Gcn.mm (V c main_arg0) (V c main_arg2) (((cfg0.win 2).blk t).view.emb j)
  refine block_eq (V c main_arg0) (V c main_arg2) (iblk0 V c 0 t) (iblk0 V c 1 t) t.val ?_ ?_ _ _ ?_ ?_
  · intro y i h0 h1
    show V c main_arg0 (((cfg0.win 0).blk t).view.emb y) = V c main_arg0 i
    have h : ((cfg0.win 0).blk t).view.emb y = i := by
      funext a; apply Fin.ext
      match a with
      | ⟨0, _⟩ => show win0_0.index t (0 : Fin 2) * 5000 + 1 * (y 0).val = (i 0).val; omega
      | ⟨1, _⟩ => show win0_0.index t (1 : Fin 2) * 128 + 1 * (y 1).val = (i 1).val; omega
    rw [h]
  · intro y
    show V c main_arg2 (((cfg0.win 1).blk t).view.emb y) = V c main_arg2 y
    have h : ((cfg0.win 1).blk t).view.emb y = y := by
      funext a; apply Fin.ext
      match a with
      | ⟨0, _⟩ => show win0_1.index t (0 : Fin 2) * 128 + 1 * (y 0).val = (y 0).val; omega
      | ⟨1, _⟩ => show win0_1.index t (1 : Fin 2) * 128 + 1 * (y 1).val = (y 1).val; omega
    rw [h]
  · show win0_2.index t (0 : Fin 2) * 5000 + 1 * (j 0).val = t.val * 5000 + (j 0).val; omega
  · show win0_2.index t (1 : Fin 2) * 128 + 1 * (j 1).val = (j 1).val; omega

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the result array is in the block of the point its row falls in. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_2 _, ?_⟩
  rw [mem_blk]
  obtain ⟨e0, e1, e2, e3, e4, e5⟩ := idx_facts ⟨(i 0).val / 5000, ht⟩
  have e4' : win0_2.index ⟨(i 0).val / 5000, ht⟩ (0 : Fin 2) = (i 0).val / 5000 := e4
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- After the region the result array is the matrix product of the two operand arrays as the region found them. -/
theorem final (c : Dev nD) : (dat0 V c).arrAt 2 cfg0.N = Gcn.mm (V c main_arg0) (V c main_arg2) :=
  (dat0 V c).arrAt_eq_of_cover 2 _ (fun t _ => flushed_eq V c t) cover

end Cert.KernelIdeal.Reg0

end
-- ==== Proof.Reg1.lean ====
/-
  Region 1 of the kernel's program adds the bias row to every row of the aggregated features and takes the maximum with
  zero, block by block: grid point t takes rows 5000·t … 5000·t + 4999 of the features and the one bias row, and writes
  max(features + bias, 0) as the same rows of the result. Entry (r, q) of a block's result is max(block (r, q) + bias (0, q), 0);
  the block's row r is the array's row 5000·t + r, so every block is the restriction of ONE function of the whole arrays,
  `Gcn.rowBiasRelu`, and the ten blocks cover the result: after the region the result array is that function of the two.
-/
import proofs.«140125_j5557687681608_1_alg».proof.Proof.Gen.KernelIdeal.Frame
import proofs.«140125_j5557687681608_1_alg».proof.Proof.Spec
import Idealize.ShloMosaic.Lib.Pipeline.Value
import Idealize.ShloMosaic.Lib.ValueIdx
import Idealize.ShloMosaic.Lib.ValueLayout

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-! ## The body's payload at an entry -/

/-- Entry (p, q) of what the body stores: the features' (p, q) plus the bias row's (0, q), and the maximum of that with
    the value of the zero word. -/
theorem pay_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  simp only [shapeCast_self]
  refine (maximumf_apply _ _ _).trans ?_
  rw [addf_apply, broadcastTo_1b_ab_apply]
  rfl

/-- A block's payload is the whole-array function read where the block sits: when the features block's row r is the
    features array's row o·5000 + r and the bias block is the bias row, the payload at y is `Gcn.rowBiasRelu` at any
    index i with i = (o·5000 + y₀, y₁). -/
theorem block_eq (A : S50000x128.Idx → EReal) (B : S1x128.Idx → EReal) (x0 : Vec Ideal S5000x128 .f32) (x1 : Vec Ideal S1x128 .f32) (o : ℕ)
    (hx0 : ∀ (y : S5000x128.Idx) (i : S50000x128.Idx), (i 0).val = o * 5000 + (y 0).val → (i 1).val = (y 1).val → x0 y = A i)
    (hx1 : ∀ y : S1x128.Idx, x1 y = B y)
    (y : S5000x128.Idx) (i : S50000x128.Idx) (hi0 : (i 0).val = o * 5000 + (y 0).val) (hi1 : (i 1).val = (y 1).val) :
    k1_pay1 (F := Ideal) x0 x1 y = Gcn.rowBiasRelu A B i := by
  obtain ⟨p, q, rfl⟩ : ∃ (p : Fin 5000) (q : Fin 128), y = ix2 p q := ⟨y 0, y 1, eq_ix2 y⟩
  rw [pay_apply, hx0 (ix2 p q) i hi0 hi1, hx1]
  unfold Gcn.rowBiasRelu
  have hq : Gcn.col i = q := Fin.ext hi1
  rw [hq]

/-! ## From the blocks to the array -/

variable (V : (c : Dev nD) → (b : Ref sig .tc) → Buf (Elt Ideal) ((c : Thread nD τ).loc b))

/-- The printed index maps over the grid: the features' and the result's block move down one block of rows per point;
    the bias row's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `Gcn.rowBiasRelu` of the arrays as the region finds them. -/
theorem flushed_eq (c : Dev nD) (t : Fin cfg1.N) :
    (dat1 V c).flushed 2 t = ((cfg1.win 2).blk t).view.read (Elt Ideal) (Gcn.rowBiasRelu (V c main_v44) (V c main_v45)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (F := Ideal) (iblk1 V c 0 t) (iblk1 V c 1 t) ((cfg1.win 2).xinj (grid1.coords t) j)
    = Gcn.rowBiasRelu (V c main_v44) (V c main_v45) (((cfg1.win 2).blk t).view.emb j)
  refine block_eq (V c main_v44) (V c main_v45) (iblk1 V c 0 t) (iblk1 V c 1 t) t.val ?_ ?_ _ _ ?_ ?_
  · intro y i h0 h1
    show V c main_v44 (((cfg1.win 0).blk t).view.emb y) = V c main_v44 i
    have h : ((cfg1.win 0).blk t).view.emb y = i := by
      funext a; apply Fin.ext
      match a with
      | ⟨0, _⟩ => show win1_0.index t (0 : Fin 2) * 5000 + 1 * (y 0).val = (i 0).val; omega
      | ⟨1, _⟩ => show win1_0.index t (1 : Fin 2) * 128 + 1 * (y 1).val = (i 1).val; omega
    rw [h]
  · intro y
    show V c main_v45 (((cfg1.win 1).blk t).view.emb y) = V c main_v45 y
    have h : ((cfg1.win 1).blk t).view.emb y = y := by
      funext a; apply Fin.ext
      match a with
      | ⟨0, _⟩ => show win1_1.index t (0 : Fin 2) * 1 + 1 * (y 0).val = (y 0).val; omega
      | ⟨1, _⟩ => show win1_1.index t (1 : Fin 2) * 128 + 1 * (y 1).val = (y 1).val; omega
    rw [h]
  · show win1_2.index t (0 : Fin 2) * 5000 + 1 * (j 0).val = t.val * 5000 + (j 0).val; omega
  · show win1_2.index t (1 : Fin 2) * 128 + 1 * (j 1).val = (j 1).val; omega

/-- An index of the result array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every index of the result array is in the block of the point its row falls in. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_2 _, ?_⟩
  rw [mem_blk]
  obtain ⟨e0, e1, e2, e3, e4, e5⟩ := idx_facts ⟨(i 0).val / 5000, ht⟩
  have e4' : win1_2.index ⟨(i 0).val / 5000, ht⟩ (0 : Fin 2) = (i 0).val / 5000 := e4
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    omega

/-- After the region the result array is `Gcn.rowBiasRelu` of the features and the bias row as the region found them. -/
theorem final (c : Dev nD) : (dat1 V c).arrAt 2 cfg1.N = Gcn.rowBiasRelu (V c main_v44) (V c main_v45) :=
  (dat1 V c).arrAt_eq_of_cover 2 _ (fun t _ => flushed_eq V c t) cover

end Cert.KernelIdeal.Reg1

end
-- ==== Proof.Reg2.lean ====
/-
  Region 2 of the kernel's program is a matrix product computed block by block: grid point t takes rows
  5000·t … 5000·t + 4999 of the left operand and the whole right operand, and writes the product of the two as rows
  5000·t … 5000·t + 4999 of the result. Entry (r, q) of a block's product is the sum over k of the block's (r, k) times
  the right operand's (k, q), the rounding of the operands to a narrower format being the identity over the extended reals;
  the block's row r is the array's row 5000·t + r, so every block is the restriction of ONE function of the whole arrays,
  the matrix product `Gcn.mm`, and the ten blocks cover the result: after the region the result array is that product.
-/
import proofs.«140125_j5557687681608_1_alg».proof.Proof.Gen.KernelIdeal.Frame
import proofs.«140125_j5557687681608_1_alg».proof.Proof.Spec
import proofs.«140125_j5557687681608_1_alg».proof.Proof.LibMatmulAt
import Idealize.ShloMosaic.Lib.Pipeline.Value
import Idealize.ShloMosaic.Lib.ValueIdx
import Idealize.ShloMosaic.PureOps.Ideal.Laws

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

/-- The contraction of the block product: the left operand's second axis against the right operand's first. -/
abbrev D : DotDims S5000x128 S128x40 S5000x40 := dot_S5000x128_S128x40_S5000x40_1_0_0_1_n_n

theorem hz : (![0, 0] : Fin 2 → Nat) = fun _ => 0 := funext fun a => by fin_cases a <;> rfl

/-! ## Where the two operand indices of the contraction sit -/

theorem lhs_0 (i : S5000x40.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (i : S5000x40.Idx) (q : D.contr.Idx) : (D.lhsIdx i q 1).val = (q ⟨0, by decide⟩).val :=
  D.lhsIdx_val_of_single rfl i q
theorem rhs_0 (i : S5000x40.Idx) (q : D.contr.Idx) : (D.rhsIdx i q 0).val = (q ⟨0, by decide⟩).val :=
  D.rhsIdx_val_of_single rfl i q
theorem rhs_1 (i : S5000x40.Idx) (q : D.contr.Idx) : (D.rhsIdx i q 1).val = (i 1).val := by
  unfold DotDims.rhsIdx
  rw [dif_neg (show ¬(1 : Fin S128x40.rank) ∈ D.rhsBatch by decide), dif_pos (show (1 : Fin S128x40.rank) ∈ D.rhsNonContracting by decide)]
  rfl

/-! ## The body's payload at an entry -/

/-- Entry (p, q) of what the body stores: the sum over k of the left block's (p, k) times the right operand's (k, q). -/
theorem pay_apply (x0 : Vec Ideal S5000x128 .f32) (x1 : Vec Ideal S128x40 .f32) (p : Fin 5000) (q : Fin 40) :
    k2_pay1 (F := Ideal) x0 x1 (ix2 p q) = ∑ k : Fin 128, x0 (ix2 p k) * x1 (ix2 k q) := by
  unfold k2_pay1
  simp only [shapeCast_self]
  exact MatmulAt.matmul_zero_ix2 D rfl rfl lhs_0 lhs_1 rhs_0 rhs_1 none
    (truncf .bf16 x0 bitsLt_bf16_f32) (truncf .bf16 x1 bitsLt_bf16_f32) p q

/-- A block's payload is the whole product read where the block sits: when the left block's row r is the left array's row
    o·5000 + r and the right block is the right array, the payload at y is the product at any index i with
    i = (o·5000 + y₀, y₁). -/
theorem block_eq (X : S50000x128.Idx → EReal) (W : S128x40.Idx → EReal) (x0 : Vec Ideal S5000x128 .f32) (x1 : Vec Ideal S128x40 .f32) (o : ℕ)
    (hx0 : ∀ (y : S5000x128.Idx) (i : S50000x128.Idx), (i 0).val = o * 5000 + (y 0).val → (i 1).val = (y 1).val → x0 y = X i)
    (hx1 : ∀ y : S128x40.Idx, x1 y = W y)
    (y : S5000x40.Idx) (i : S50000x40.Idx) (hi0 : (i 0).val = o * 5000 + (y 0).val) (hi1 : (i 1).val = (y 1).val) :
    k2_pay1 (F := Ideal) x0 x1 y = Gcn.mm X W i := by
  obtain ⟨p, q, rfl⟩ : ∃ (p : Fin 5000) (q : Fin 40), y = ix2 p q := ⟨y 0, y 1, eq_ix2 y⟩
  rw [pay_apply]
  unfold Gcn.mm
  refine Finset.sum_congr rfl fun k _ => ?_
  rw [hx0 (ix2 p k) (ix2 (Gcn.row i) k) hi0 rfl, hx1]
  have hq : Gcn.col i = q := Fin.ext hi1
  rw [hq]

/-! ## From the blocks to the array -/

variable (V : (c : Dev nD) → (b : Ref sig .tc) → Buf (Elt Ideal) ((c : Thread nD τ).loc b))

/-- The printed index maps over the grid: the left operand's and the result's block move down one block of rows per point;
    the right operand's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays as the region finds them. -/
theorem flushed_eq (c : Dev nD) (t : Fin cfg2.N) :
    (dat2 V c).flushed 2 t = ((cfg2.win 2).blk t).view.read (Elt Ideal) (Gcn.mm (V c main_v46) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  obtain ⟨e0, e1, e2, e3, e4, e5⟩ := idx_facts t
  funext j
  show k2_pay1 (F := Ideal) (iblk2 V c 0 t) (iblk2 V c 1 t) ((cfg2.win 2).xinj (grid2.coords t) j)
    = Gcn.mm (V c main_v46) (V c main_arg4) (((cfg2.win 2).blk t).view.emb j)
  refine block_eq (V c main_v46) (V c main_arg4) (iblk2 V c 0 t) (iblk2 V c 1 t) t.val ?_ ?_ _ _ ?_ ?_
  · intro y i h0 h1
    show V c main_v46 (((cfg2.win 0).blk t).view.emb y) = V c main_v46 i
    have h : ((cfg2.win 0).blk t).view.emb y = i := by
      funext a; apply Fin.ext
      match a with
      | ⟨0, _⟩ => show win2_0.index t (0 : Fin 2) * 5000 + 1 * (y 0).val = (i 0).val; omega
      | ⟨1, _⟩ => show win2_0.index t (1 : Fin 2) * 128 + 1 * (y 1).val = (i 1).val; omega
    rw [h]
  · intro y
    show V c main_arg4 (((cfg2.win 1).blk t).view.emb y) = V c main_arg4 y
    have h : ((cfg2.win 1).blk t).view.emb y = y := by
      funext a; apply Fin.ext
      match a with
      | ⟨0, _⟩ => show win2_1.index t (0 : Fin 2) * 128 + 1 * (y 0).val = (y 0).val; omega
      | ⟨1, _⟩ => show win2_1.index t (1 : Fin 2) * 40 + 1 * (y 1).val = (y 1).val; omega
    rw [h]
  · show win2_2.index t (0 : Fin 2) * 5000 + 1 * (j 0).val = t.val * 5000 + (j 0).val; omega
  · show win2_2.index t (1 : Fin 2) * 40 + 1 * (j 1).val = (j 1).val; omega

/-- An index of the result array is in point t's block iff each coordinate is in the block's range on its axis. -/
theorem mem_blk (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v47).slice (win2_2.rect t)).set ↔ _
  rw [View.set_slice_whole, Rect.mem_set_unit]
  exact Iff.rfl

/-- Every index of the result array is in the block of the point its row falls in. -/
theorem cover (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 10 := N_2
  have ht : (i 0).val / 5000 < cfg2.N := by rw [hN]; omega
  refine ⟨⟨(i 0).val / 5000, ht⟩, flush2_2 _, ?_⟩
  rw [mem_blk]
  obtain ⟨e0, e1, e2, e3, e4, e5⟩ := idx_facts ⟨(i 0).val / 5000, ht⟩
  have e4' : win2_2.index ⟨(i 0).val / 5000, ht⟩ (0 : Fin 2) = (i 0).val / 5000 := e4
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    omega
  | ⟨1, _⟩ =>
    show win2_2.index ⟨(i 0).val / 5000, ht⟩ (1 : Fin 2) * 40 ≤ (i 1).val ∧ (i 1).val < win2_2.index ⟨(i 0).val / 5000, ht⟩ (1 : Fin 2) * 40 + 40
    omega

/-- After the region the result array is the matrix product of the two operand arrays as the region found them. -/
theorem final (c : Dev nD) : (dat2 V c).arrAt 2 cfg2.N = Gcn.mm (V c main_v46) (V c main_arg4) :=
  (dat2 V c).arrAt_eq_of_cover 2 _ (fun t _ => flushed_eq V c t) cover

end Cert.KernelIdeal.Reg2

end
-- ==== Proof.Reg3.lean ====
/-
  Region 3 of the kernel's program adds the bias row to every row of the aggregated features, block by block: grid point t
  takes rows 5000·t … 5000·t + 4999 of the features and the one bias row, and writes features + bias as the same rows of
  the result. Entry (r, q) of a block's result is block (r, q) + bias (0, q);
  the block's row r is the array's row 5000·t + r, so every block is the restriction of ONE function of the whole arrays,
  `Gcn.rowBias`, and the ten blocks cover the result: after the region the result array is that function of the two.
-/
import proofs.«140125_j5557687681608_1_alg».proof.Proof.Gen.KernelIdeal.Frame
import proofs.«140125_j5557687681608_1_alg».proof.Proof.Spec
import Idealize.ShloMosaic.Lib.Pipeline.Value
import Idealize.ShloMosaic.Lib.ValueIdx
import Idealize.ShloMosaic.Lib.ValueLayout

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-! ## The body's payload at an entry -/

/-- Entry (p, q) of what the body stores: the features' (p, q) plus the bias row's (0, q). -/
theorem pay_apply (x0 : Vec Ideal S5000x40 .f32) (x1 : Vec Ideal S1x40 .f32) (p : Fin 5000) (q : Fin 40) :
    k3_pay1 (F := Ideal) x0 x1 (ix2 p q) = x0 (ix2 p q) + x1 (ix2 (0 : Fin 1) q) := by
  unfold k3_pay1
  simp only [shapeCast_self]
  rw [addf_apply, broadcastTo_1b_ab_apply]

/-- A block's payload is the whole-array function read where the block sits: when the features block's row r is the
    features array's row o·5000 + r and the bias block is the bias row, the payload at y is `Gcn.rowBias` at any
    index i with i = (o·5000 + y₀, y₁). -/
theorem block_eq (A : S50000x40.Idx → EReal) (B : S1x40.Idx → EReal) (x0 : Vec Ideal S5000x40 .f32) (x1 : Vec Ideal S1x40 .f32) (o : ℕ)
    (hx0 : ∀ (y : S5000x40.Idx) (i : S50000x40.Idx), (i 0).val = o * 5000 + (y 0).val → (i 1).val = (y 1).val → x0 y = A i)
    (hx1 : ∀ y : S1x40.Idx, x1 y = B y)
    (y : S5000x40.Idx) (i : S50000x40.Idx) (hi0 : (i 0).val = o * 5000 + (y 0).val) (hi1 : (i 1).val = (y 1).val) :
    k3_pay1 (F := Ideal) x0 x1 y = Gcn.rowBias A B i := by
  obtain ⟨p, q, rfl⟩ : ∃ (p : Fin 5000) (q : Fin 40), y = ix2 p q := ⟨y 0, y 1, eq_ix2 y⟩
  rw [pay_apply, hx0 (ix2 p q) i hi0 hi1, hx1]
  unfold Gcn.rowBias
  have hq : Gcn.col i = q := Fin.ext hi1
  rw [hq]

/-! ## From the blocks to the array -/

variable (V : (c : Dev nD) → (b : Ref sig .tc) → Buf (Elt Ideal) ((c : Thread nD τ).loc b))

/-- The printed index maps over the grid: the features' and the result's block move down one block of rows per point;
    the bias row's block stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `Gcn.rowBias` of the arrays as the region finds them. -/
theorem flushed_eq (c : Dev nD) (t : Fin cfg3.N) :
    (dat3 V c).flushed 2 t = ((cfg3.win 2).blk t).view.read (Elt Ideal) (Gcn.rowBias (V c main_v60) (V c main_v61)) := by
  show (cfg3.win 2).cut (grid3.coords t) ((dat3 V c).after 2 t) = _
  rw [after3_2]
  unfold out3_2
  rw [View.canon_unit_zero hz]
  simp only [View.ld_unit_zero (S := S5000x40) hz, View.ld_unit_zero (S := S1x40) hz]
  obtain ⟨e0, e1, e2, e3, e4, e5⟩ := idx_facts t
  funext j
  show k3_pay1 (F := Ideal) (iblk3 V c 0 t) (iblk3 V c 1 t) ((cfg3.win 2).xinj (grid3.coords t) j)
    = Gcn.rowBias (V c main_v60) (V c main_v61) (((cfg3.win 2).blk t).view.emb j)
  refine block_eq (V c main_v60) (V c main_v61) (iblk3 V c 0 t) (iblk3 V c 1 t) t.val ?_ ?_ _ _ ?_ ?_
  · intro y i h0 h1
    show V c main_v60 (((cfg3.win 0).blk t).view.emb y) = V c main_v60 i
    have h : ((cfg3.win 0).blk t).view.emb y = i := by
      funext a; apply Fin.ext
      match a with
      | ⟨0, _⟩ => show win3_0.index t (0 : Fin 2) * 5000 + 1 * (y 0).val = (i 0).val; omega
      | ⟨1, _⟩ => show win3_0.index t (1 : Fin 2) * 40 + 1 * (y 1).val = (i 1).val; omega
    rw [h]
  · intro y
    show V c main_v61 (((cfg3.win 1).blk t).view.emb y) = V c main_v61 y
    have h : ((cfg3.win 1).blk t).view.emb y = y := by
      funext a; apply Fin.ext
      match a with
      | ⟨0, _⟩ => show win3_1.index t (0 : Fin 2) * 1 + 1 * (y 0).val = (y 0).val; omega
      | ⟨1, _⟩ => show win3_1.index t (1 : Fin 2) * 40 + 1 * (y 1).val = (y 1).val; omega
    rw [h]
  · show win3_2.index t (0 : Fin 2) * 5000 + 1 * (j 0).val = t.val * 5000 + (j 0).val; omega
  · show win3_2.index t (1 : Fin 2) * 40 + 1 * (j 1).val = (j 1).val; omega

/-- An index of the result array is in point t's block iff each coordinate is in the block's range on its axis. -/
theorem mem_blk (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v62).slice (win3_2.rect t)).set ↔ _
  rw [View.set_slice_whole, Rect.mem_set_unit]
  exact Iff.rfl

/-- Every index of the result array is in the block of the point its row falls in. -/
theorem cover (i : S50000x40.Idx) : ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 10 := N_3
  have ht : (i 0).val / 5000 < cfg3.N := by rw [hN]; omega
  refine ⟨⟨(i 0).val / 5000, ht⟩, flush3_2 _, ?_⟩
  rw [mem_blk]
  obtain ⟨e0, e1, e2, e3, e4, e5⟩ := idx_facts ⟨(i 0).val / 5000, ht⟩
  have e4' : win3_2.index ⟨(i 0).val / 5000, ht⟩ (0 : Fin 2) = (i 0).val / 5000 := e4
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    omega
  | ⟨1, _⟩ =>
    show win3_2.index ⟨(i 0).val / 5000, ht⟩ (1 : Fin 2) * 40 ≤ (i 1).val ∧ (i 1).val < win3_2.index ⟨(i 0).val / 5000, ht⟩ (1 : Fin 2) * 40 + 40
    omega

/-- After the region the result array is `Gcn.rowBias` of the features and the bias row as the region found them. -/
theorem final (c : Dev nD) : (dat3 V c).arrAt 2 cfg3.N = Gcn.rowBias (V c main_v60) (V c main_v61) :=
  (dat3 V c).arrAt_eq_of_cover 2 _ (fun t _ => flushed_eq V c t) cover

end Cert.KernelIdeal.Reg3

end
-- ==== Proof.HostK.lean ====
/-
  The host side of the graph convolution, as functions of whole arrays at the ideal instance: from the edge list to the
  source and target node of every edge (the given edges, then one self loop per node), the degree of every node
  (a scatter-add of ones over the targets), its inverse square root where the degree is positive, the normalisation
  norm(e) = dinv(src e) · 1 · dinv(dst e) of every edge, and the aggregation of a feature array H over the edges:
  agg(H)(v) = Σ over the edges e with dst e = v of norm(e) · H(src e), as a gather of rows, a product with the broadcast
  norm and a scatter-add into zeros. Each is the composition of the program's own host operations, in the program's order.
-/
import proofs.«140125_j5557687681608_1_alg».proof.Proof.Gen.KernelIdeal
import Idealize.ShloMosaic.PureOps.Ideal

noncomputable section

namespace Cert.KernelIdeal.HostFn

open Cert.KernelIdeal Cert.KernelIdeal.Facts₀ Idealize.ShloMosaic

/-- The given edges' source nodes: row 0 of the edge list. -/
def srcOf (e : IVec S2x800000 32) : IVec S800000 32 :=
  shapeCast _ (extractStridedSlice S1x800000 ![0, 0] e slices_S2x800000_S1x800000_0_0) shapeCasts_S1x800000_S800000
/-- The given edges' target nodes: row 1 of the edge list. -/
def dstOf (e : IVec S2x800000 32) : IVec S800000 32 :=
  shapeCast _ (extractStridedSlice S1x800000 ![1, 0] e slices_S2x800000_S1x800000_1_0) shapeCasts_S1x800000_S800000
/-- One self loop per node appended to a list of nodes. -/
def withLoops (v : IVec S800000 32) : IVec S850000 32 :=
  concatenate S850000 0 [⟨S800000, v⟩, ⟨S50000, (iotaInDim S50000 32 0)⟩] concatenates_S800000_S50000_S850000_d0
/-- Every edge's source node. -/
def rowT (e : IVec S2x800000 32) : IVec S850000 32 := withLoops (srcOf e)
/-- Every edge's target node. -/
def colT (e : IVec S2x800000 32) : IVec S850000 32 := withLoops (dstOf e)

/-- A list of nodes as a one-column index array. -/
def asColumn (v : IVec S850000 32) : IVec S850000x1 32 := broadcastInDim S850000x1 ![0] bcast_S850000_S850000x1_0 v
/-- A list of nodes with the negative ones moved up by the node count, as a one-column index array. -/
def wrapped (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- One per edge. -/
def ones : FVec Ideal S850000 .f32 := broadcastInDim S850000 ![] bcast_S_S850000 (constant (F := Ideal) S_ .f32 0x3F800000#32)
/-- Every node's degree: the number of edges that end in it. -/
def deg (col : IVec S850000 32) : FVec Ideal S50000 .f32 :=
  Host.scatterAdd (F := Ideal) scatter_S50000_S850000x1_S850000_n_0_0_1
    (broadcastInDim S50000 ![] bcast_S_S50000 (constant (F := Ideal) S_ .f32 0x00000000#32)) (asColumn col) ones
/-- Every node's inverse square root of its degree where the degree is positive, zero elsewhere. -/
def dinv (col : IVec S850000 32) : FVec Ideal S50000 .f32 :=
  select (cmpf (F := Ideal) .ogt (deg col) (broadcastInDim S50000 ![] bcast_S_S50000 (constant (F := Ideal) S_ .f32 0x00000000#32)))
    (Host.rsqrt (F := Ideal) (deg col)) (broadcastInDim S50000 ![] bcast_S_S50000 (id (constant (F := Ideal) S_ .f32 0x00000000#32)))
/-- Every edge's normalisation. -/
def normOf (row col : IVec S850000 32) : FVec Ideal S850000 .f32 :=
  mulf (mulf (Host.gather gather_S50000_S850000x1_S850000_n_0_n_n_0_1_1 (dinv col) (wrapped row)) ones)
    (Host.gather gather_S50000_S850000x1_S850000_n_0_n_n_0_1_1 (dinv col) (wrapped col))
/-- Every edge's normalisation, from the edge list. -/
def normT (e : IVec S2x800000 32) : FVec Ideal S850000 .f32 := normOf (rowT e) (colT e)

/-- The aggregation of 128 features per node over the edges. -/
def agg128 (row col : IVec S850000 32) (norm : FVec Ideal S850000 .f32) (H : FVec Ideal S50000x128 .f32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32)) (asColumn col)
    (mulf (Host.gather gather_S50000x128_S850000x1_S850000x128_1_0_n_n_0_1_1128 H (wrapped row))
      (broadcastInDim S850000x128 ![0, 1] bcast_S850000x1_S850000x128_0_1 (broadcastInDim S850000x1 ![0] bcast_S850000_S850000x1_0 norm)))
/-- The aggregation of 40 features per node over the edges. -/
def agg40 (row col : IVec S850000 32) (norm : FVec Ideal S850000 .f32) (H : FVec Ideal S50000x40 .f32) : FVec Ideal S50000x40 .f32 :=
  Host.scatterAdd (F := Ideal) scatter_S50000x40_S850000x1_S850000x40_1_0_0_1
    (broadcastInDim S50000x40 ![] bcast_S_S50000x40 (constant (F := Ideal) S_ .f32 0x00000000#32)) (asColumn col)
    (mulf (Host.gather gather_S50000x40_S850000x1_S850000x40_1_0_n_n_0_1_140 H (wrapped row))
      (broadcastInDim S850000x40 ![0, 1] bcast_S850000x1_S850000x40_0_1 (broadcastInDim S850000x1 ![0] bcast_S850000_S850000x1_0 norm)))

end Cert.KernelIdeal.HostFn

end
-- ==== Proof.HostStages.lean ====
/-
  What the kernel program's stretches of host operations leave in the buffers the later segments read, as functions of
  the contents W the stretch starts from. Before the first launch: the source and target node of every edge (the first
  seven operations, from the edge list alone) and every edge's normalisation (the operations after them, from the sources
  and targets). Between the first and the second launch: the aggregation of the first product over the edges and the first
  bias laid down as one row. Before the last launch: the aggregation of the second product and the second bias as one row.
  A buffer that no operation of a stretch writes keeps its contents.
-/
import proofs.«140125_j5557687681608_1_alg».proof.Proof.Gen.KernelIdeal.Launch
import proofs.«140125_j5557687681608_1_alg».proof.Proof.HostK
import Idealize.ShloMosaic.Lib.StableHlo.Run

noncomputable section

namespace Cert.KernelIdeal.Stage

open Cert.KernelIdeal Cert.KernelIdeal.Gen Cert.KernelIdeal.HostFn
open Idealize.ShloMosaic Idealize.ShloMosaic.TcCoe Idealize.ShloMosaic.StableHlo

/-! ## Before the first launch -/

section Lists

variable {F : FTy → Type} [FloatOps F]

/-- The first seven host operations: the edge list cut into sources and targets, the self loops appended. -/
abbrev edgeOps : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The operations after them in the first list: the degrees and their inverse square roots' ingredients. -/
abbrev degOps : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

/-- The first list of host operations is the two parts one after the other. -/
theorem hostOps0_split : (hostOps0 : List (HloOp τ sig (Elt F))) = edgeOps ++ degOps := rfl

end Lists

variable (W : Valuation τ sig (Elt Ideal))

/-- The contents after the operations that follow the first seven, up to the first launch. -/
abbrev normStretch : Valuation τ sig (Elt Ideal) := after hostOps0_2 (after hostOps0_1 (after degOps W))

/-- The contents after the three lists of host operations that precede the first launch. -/
abbrev entry0 : Valuation τ sig (Elt Ideal) := after hostOps0_2 (after hostOps0_1 (after hostOps0 W))

/-- The stretch before the first launch is its first seven operations, then the rest. -/
theorem entry0_split : entry0 W = normStretch (after edgeOps W) := by
  show after hostOps0_2 (after hostOps0_1 (after hostOps0 W)) = _
  rw [hostOps0_split]
  rfl

theorem edge_row : after edgeOps W (Proc.devRef .tc main_v5) = rowT (W (Proc.devRef .tc main_arg1)) := by
  simp only [edgeOps]
  after_results
  rfl
theorem edge_col : after edgeOps W (Proc.devRef .tc main_v6) = colT (W (Proc.devRef .tc main_arg1)) := by
  simp only [edgeOps]
  after_results
  rfl
theorem edge_arg0 : after edgeOps W (Proc.devRef .tc main_arg0) = W (Proc.devRef .tc main_arg0) := by
  simp only [edgeOps]
  after_results_simp
theorem edge_arg2 : after edgeOps W (Proc.devRef .tc main_arg2) = W (Proc.devRef .tc main_arg2) := by
  simp only [edgeOps]
  after_results_simp
theorem edge_arg3 : after edgeOps W (Proc.devRef .tc main_arg3) = W (Proc.devRef .tc main_arg3) := by
  simp only [edgeOps]
  after_results_simp
theorem edge_arg4 : after edgeOps W (Proc.devRef .tc main_arg4) = W (Proc.devRef .tc main_arg4) := by
  simp only [edgeOps]
  after_results_simp
theorem edge_arg5 : after edgeOps W (Proc.devRef .tc main_arg5) = W (Proc.devRef .tc main_arg5) := by
  simp only [edgeOps]
  after_results_simp

/-! The normalisation, list by list: the degrees' comparison with zero and their inverse square roots; the choice between
    the inverse square root and zero; the two gathers along the edges and the product. -/

theorem deg_pos : after degOps W (Proc.devRef .tc main_v12)
    = cmpf (F := Ideal) .ogt (deg (W (Proc.devRef .tc main_v6))) (broadcastInDim S50000 ![] bcast_S_S50000 (constant (F := Ideal) S_ .f32 0x00000000#32)) := by
  simp only [degOps]
  after_results_simp
  rfl
theorem deg_rsqrt : after degOps W (Proc.devRef .tc main_v13) = Host.rsqrt (F := Ideal) (deg (W (Proc.devRef .tc main_v6))) := by
  simp only [degOps]
  after_results_simp
  rfl
theorem deg_zero : after degOps W (Proc.devRef .tc main_cst_2) = constant (F := Ideal) S_ .f32 0x00000000#32 := by
  simp only [degOps]
  after_results_simp
theorem deg_ones : after degOps W (Proc.devRef .tc main_v7) = ones := by
  simp only [degOps]
  after_results_simp
  rfl
theorem deg_row : after degOps W (Proc.devRef .tc main_v5) = W (Proc.devRef .tc main_v5) := by
  simp only [degOps]
  after_results_simp
theorem deg_col : after degOps W (Proc.devRef .tc main_v6) = W (Proc.devRef .tc main_v6) := by
  simp only [degOps]
  after_results_simp

theorem where_dinv : after hostOps0_1 W (Proc.devRef .tc main_v14)
    = select (W (Proc.devRef .tc main_v12)) (W (Proc.devRef .tc main_v13))
        (broadcastInDim S50000 ![] bcast_S_S50000 (id (W (Proc.devRef .tc main_cst_2)))) := by
  simp only [hostOps0_1]
  after_results_simp
  rfl
theorem where_ones : after hostOps0_1 W (Proc.devRef .tc main_v7) = W (Proc.devRef .tc main_v7) := by
  simp only [hostOps0_1]
  after_results_simp
theorem where_row : after hostOps0_1 W (Proc.devRef .tc main_v5) = W (Proc.devRef .tc main_v5) := by
  simp only [hostOps0_1]
  after_results_simp
theorem where_col : after hostOps0_1 W (Proc.devRef .tc main_v6) = W (Proc.devRef .tc main_v6) := by
  simp only [hostOps0_1]
  after_results_simp

set_option maxHeartbeats 1000000 in
theorem gather_norm : after hostOps0_2 W (Proc.devRef .tc main_v30)
    = mulf (F := Ideal) (φ := .f32) (mulf (F := Ideal) (φ := .f32)
          (Host.gather gather_S50000_S850000x1_S850000_n_0_n_n_0_1_1 (W (Proc.devRef .tc main_v14)) (wrapped (W (Proc.devRef .tc main_v5))))
          (W (Proc.devRef .tc main_v7)))
        (Host.gather gather_S50000_S850000x1_S850000_n_0_n_n_0_1_1 (W (Proc.devRef .tc main_v14)) (wrapped (W (Proc.devRef .tc main_v6)))) := by
  simp only [hostOps0_2]
  after_results_simp
  rfl

theorem norm_norm : normStretch W (Proc.devRef .tc main_v30) = normOf (W (Proc.devRef .tc main_v5)) (W (Proc.devRef .tc main_v6)) := by
  show after hostOps0_2 (after hostOps0_1 (after degOps W)) (Proc.devRef .tc main_v30) = _
  rw [gather_norm, where_dinv, where_ones, where_row, where_col, deg_pos, deg_rsqrt, deg_zero, deg_ones, deg_row, deg_col]
  rfl
theorem norm_row : normStretch W (Proc.devRef .tc main_v5) = W (Proc.devRef .tc main_v5) := by
  simp only [normStretch, degOps, hostOps0_1, hostOps0_2]
  after_results_simp
theorem norm_col : normStretch W (Proc.devRef .tc main_v6) = W (Proc.devRef .tc main_v6) := by
  simp only [normStretch, degOps, hostOps0_1, hostOps0_2]
  after_results_simp
theorem norm_arg0 : normStretch W (Proc.devRef .tc main_arg0) = W (Proc.devRef .tc main_arg0) := by
  simp only [normStretch, degOps, hostOps0_1, hostOps0_2]
  after_results_simp
theorem norm_arg2 : normStretch W (Proc.devRef .tc main_arg2) = W (Proc.devRef .tc main_arg2) := by
  simp only [normStretch, degOps, hostOps0_1, hostOps0_2]
  after_results_simp
theorem norm_arg3 : normStretch W (Proc.devRef .tc main_arg3) = W (Proc.devRef .tc main_arg3) := by
  simp only [normStretch, degOps, hostOps0_1, hostOps0_2]
  after_results_simp
theorem norm_arg4 : normStretch W (Proc.devRef .tc main_arg4) = W (Proc.devRef .tc main_arg4) := by
  simp only [normStretch, degOps, hostOps0_1, hostOps0_2]
  after_results_simp
theorem norm_arg5 : normStretch W (Proc.devRef .tc main_arg5) = W (Proc.devRef .tc main_arg5) := by
  simp only [normStretch, degOps, hostOps0_1, hostOps0_2]
  after_results_simp

theorem entry0_row : entry0 W (Proc.devRef .tc main_v5) = rowT (W (Proc.devRef .tc main_arg1)) := by
  rw [entry0_split, norm_row, edge_row]
theorem entry0_col : entry0 W (Proc.devRef .tc main_v6) = colT (W (Proc.devRef .tc main_arg1)) := by
  rw [entry0_split, norm_col, edge_col]
theorem entry0_norm : entry0 W (Proc.devRef .tc main_v30) = normT (W (Proc.devRef .tc main_arg1)) := by
  rw [entry0_split, norm_norm, edge_row, edge_col]
  rfl
theorem entry0_arg0 : entry0 W (Proc.devRef .tc main_arg0) = W (Proc.devRef .tc main_arg0) := by
  rw [entry0_split, norm_arg0, edge_arg0]
theorem entry0_arg2 : entry0 W (Proc.devRef .tc main_arg2) = W (Proc.devRef .tc main_arg2) := by
  rw [entry0_split, norm_arg2, edge_arg2]
theorem entry0_arg3 : entry0 W (Proc.devRef .tc main_arg3) = W (Proc.devRef .tc main_arg3) := by
  rw [entry0_split, norm_arg3, edge_arg3]
theorem entry0_arg4 : entry0 W (Proc.devRef .tc main_arg4) = W (Proc.devRef .tc main_arg4) := by
  rw [entry0_split, norm_arg4, edge_arg4]
theorem entry0_arg5 : entry0 W (Proc.devRef .tc main_arg5) = W (Proc.devRef .tc main_arg5) := by
  rw [entry0_split, norm_arg5, edge_arg5]

/-! ## Between the first and the second launch -/

set_option maxHeartbeats 1000000 in
theorem mid_agg : after hostOps1 W (Proc.devRef .tc main_v44)
    = agg128 (W (Proc.devRef .tc main_v5)) (W (Proc.devRef .tc main_v6)) (W (Proc.devRef .tc main_v30)) (W (Proc.devRef .tc main_v31)) := by
  simp only [hostOps1]
  after_results_simp
  rfl

theorem mid_bias : after hostOps1 W (Proc.devRef .tc main_v45)
    = shapeCast S1x128 (W (Proc.devRef .tc main_arg3)) shapeCasts_S128_S1x128 := by
  simp only [hostOps1]
  after_results_simp
  rfl

theorem mid_row : after hostOps1 W (Proc.devRef .tc main_v5) = W (Proc.devRef .tc main_v5) := by
  simp only [hostOps1]
  after_results_simp
theorem mid_col : after hostOps1 W (Proc.devRef .tc main_v6) = W (Proc.devRef .tc main_v6) := by
  simp only [hostOps1]
  after_results_simp
theorem mid_norm : after hostOps1 W (Proc.devRef .tc main_v30) = W (Proc.devRef .tc main_v30) := by
  simp only [hostOps1]
  after_results_simp
theorem mid_arg4 : after hostOps1 W (Proc.devRef .tc main_arg4) = W (Proc.devRef .tc main_arg4) := by
  simp only [hostOps1]
  after_results_simp
theorem mid_arg5 : after hostOps1 W (Proc.devRef .tc main_arg5) = W (Proc.devRef .tc main_arg5) := by
  simp only [hostOps1]
  after_results_simp

/-! ## Before the last launch -/

set_option maxHeartbeats 1000000 in
theorem last_agg : after hostOps3 W (Proc.devRef .tc main_v60)
    = agg40 (W (Proc.devRef .tc main_v5)) (W (Proc.devRef .tc main_v6)) (W (Proc.devRef .tc main_v30)) (W (Proc.devRef .tc main_v47)) := by
  simp only [hostOps3]
  after_results_simp
  rfl

theorem last_bias : after hostOps3 W (Proc.devRef .tc main_v61)
    = shapeCast S1x40 (W (Proc.devRef .tc main_arg5)) shapeCasts_S40_S1x40 := by
  simp only [hostOps3]
  after_results_simp
  rfl

end Cert.KernelIdeal.Stage

end
-- ==== Proof.KernelValue.lean ====
/-
  The kernel program's result as a function of its arguments. The buffer contents are followed through @main's nine
  segments: the host operations before the first launch leave every edge's source, target and normalisation, functions of
  the edge list, which no later segment writes; the first launch leaves the product of the features with the first
  weights; the next stretch its aggregation over the edges and the first bias as a row; the second launch the bias added
  and the maximum with zero; the third launch the product with the second weights; the last stretch its aggregation and
  the second bias as a row; the last launch the bias added. Composed, the result buffer ends at `layers` of the arguments.
-/
import proofs.«140125_j5557687681608_1_alg».proof.Proof.Gen.KernelIdeal.Frame
import proofs.«140125_j5557687681608_1_alg».proof.Proof.Reg0
import proofs.«140125_j5557687681608_1_alg».proof.Proof.Reg1
import proofs.«140125_j5557687681608_1_alg».proof.Proof.Reg2
import proofs.«140125_j5557687681608_1_alg».proof.Proof.Reg3
import proofs.«140125_j5557687681608_1_alg».proof.Proof.HostStages

noncomputable section

namespace Cert.KernelIdeal.KValue

open Cert.KernelIdeal Cert.KernelIdeal.Gen Cert.KernelIdeal.HostFn
open Idealize.ShloMosaic Idealize.ShloMosaic.TcCoe Idealize.SL.Sem Idealize.ShloMosaic.StableHlo

/-- The two layers, over the kernel's block products and bias stages read as whole-array functions. -/
def layers (X : FVec Ideal S50000x128 .f32) (e : IVec S2x800000 32) (W1 : FVec Ideal S128x128 .f32) (b1 : FVec Ideal S128 .f32)
    (W2 : FVec Ideal S128x40 .f32) (b2 : FVec Ideal S40 .f32) : FVec Ideal S50000x40 .f32 :=
  Gcn.rowBias (agg40 (rowT e) (colT e) (normT e)
    (Gcn.mm (Gcn.rowBiasRelu (agg128 (rowT e) (colT e) (normT e) (Gcn.mm X W1)) (shapeCast S1x128 b1 shapeCasts_S128_S1x128)) W2))
    (shapeCast S1x40 b2 shapeCasts_S40_S1x40)

variable (m : (ℓ : Loc nD τ sig) → Buf (Elt Ideal) ℓ) (ρ : Dev nD → PrngReg) (c : Dev nD)

/-! ## What the first stretch leaves, and that it stays -/

theorem row4 : W4 m ρ c (Proc.devRef .tc main_v5) = rowT (m ((c.tc : Thread nD τ).loc main_arg1)) :=
  (W4_of_ne m ρ c main_v5 (by decide)).trans (Stage.entry0_row (W0 m ρ c))
theorem col4 : W4 m ρ c (Proc.devRef .tc main_v6) = colT (m ((c.tc : Thread nD τ).loc main_arg1)) :=
  (W4_of_ne m ρ c main_v6 (by decide)).trans (Stage.entry0_col (W0 m ρ c))
theorem norm4 : W4 m ρ c (Proc.devRef .tc main_v30) = normT (m ((c.tc : Thread nD τ).loc main_arg1)) :=
  (W4_of_ne m ρ c main_v30 (by decide)).trans (Stage.entry0_norm (W0 m ρ c))

theorem row7 : W7 m ρ c (Proc.devRef .tc main_v5) = rowT (m ((c.tc : Thread nD τ).loc main_arg1)) :=
  (W7_of_ne m ρ c main_v5 (by decide)).trans ((W6_of_ne m ρ c main_v5 (by decide)).trans ((Stage.mid_row (W4 m ρ c)).trans (row4 m ρ c)))
theorem col7 : W7 m ρ c (Proc.devRef .tc main_v6) = colT (m ((c.tc : Thread nD τ).loc main_arg1)) :=
  (W7_of_ne m ρ c main_v6 (by decide)).trans ((W6_of_ne m ρ c main_v6 (by decide)).trans ((Stage.mid_col (W4 m ρ c)).trans (col4 m ρ c)))
theorem norm7 : W7 m ρ c (Proc.devRef .tc main_v30) = normT (m ((c.tc : Thread nD τ).loc main_arg1)) :=
  (W7_of_ne m ρ c main_v30 (by decide)).trans ((W6_of_ne m ρ c main_v30 (by decide)).trans ((Stage.mid_norm (W4 m ρ c)).trans (norm4 m ρ c)))

/-! ## The arguments where the segments read them -/

theorem arg0_3 : V3 m ρ c main_arg0 = m ((c.tc : Thread nD τ).loc main_arg0) := Stage.entry0_arg0 (W0 m ρ c)
theorem arg2_3 : V3 m ρ c main_arg2 = m ((c.tc : Thread nD τ).loc main_arg2) := Stage.entry0_arg2 (W0 m ρ c)
theorem arg3_4 : W4 m ρ c (Proc.devRef .tc main_arg3) = m ((c.tc : Thread nD τ).loc main_arg3) :=
  (W4_of_ne m ρ c main_arg3 (by decide)).trans (Stage.entry0_arg3 (W0 m ρ c))
theorem arg4_6 : V6 m ρ c main_arg4 = m ((c.tc : Thread nD τ).loc main_arg4) :=
  (W6_of_ne m ρ c main_arg4 (by decide)).trans ((Stage.mid_arg4 (W4 m ρ c)).trans
    ((W4_of_ne m ρ c main_arg4 (by decide)).trans (Stage.entry0_arg4 (W0 m ρ c))))
theorem arg5_7 : W7 m ρ c (Proc.devRef .tc main_arg5) = m ((c.tc : Thread nD τ).loc main_arg5) :=
  (W7_of_ne m ρ c main_arg5 (by decide)).trans ((W6_of_ne m ρ c main_arg5 (by decide)).trans ((Stage.mid_arg5 (W4 m ρ c)).trans
    ((W4_of_ne m ρ c main_arg5 (by decide)).trans (Stage.entry0_arg5 (W0 m ρ c)))))

/-! ## The results of the launches and of the stretches between them -/

/-- After the first launch: the product of the features with the first weights. -/
theorem prod1 : W4 m ρ c (Proc.devRef .tc main_v31)
    = Gcn.mm (m ((c.tc : Thread nD τ).loc main_arg0)) (m ((c.tc : Thread nD τ).loc main_arg2)) := by
  refine ((W4_arr m ρ c 2).trans (Reg0.final (V3 m ρ) c)).trans ?_
  rw [arg0_3, arg2_3]

/-- Before the second launch: the aggregation of that product over the edges. -/
theorem agg1 : V5 m ρ c main_v44
    = agg128 (rowT (m ((c.tc : Thread nD τ).loc main_arg1))) (colT (m ((c.tc : Thread nD τ).loc main_arg1))) (normT (m ((c.tc : Thread nD τ).loc main_arg1)))
        (Gcn.mm (m ((c.tc : Thread nD τ).loc main_arg0)) (m ((c.tc : Thread nD τ).loc main_arg2))) := by
  refine (Stage.mid_agg (W4 m ρ c)).trans ?_
  rw [row4, col4, norm4, prod1]

/-- Before the second launch: the first bias as a row. -/
theorem bias1 : V5 m ρ c main_v45 = shapeCast S1x128 (m ((c.tc : Thread nD τ).loc main_arg3)) shapeCasts_S128_S1x128 := by
  refine (Stage.mid_bias (W4 m ρ c)).trans ?_
  rw [arg3_4]

/-- After the second launch: the bias added and the maximum with zero. -/
theorem hidden : V6 m ρ c main_v46
    = Gcn.rowBiasRelu (agg128 (rowT (m ((c.tc : Thread nD τ).loc main_arg1))) (colT (m ((c.tc : Thread nD τ).loc main_arg1))) (normT (m ((c.tc : Thread nD τ).loc main_arg1)))
        (Gcn.mm (m ((c.tc : Thread nD τ).loc main_arg0)) (m ((c.tc : Thread nD τ).loc main_arg2))))
      (shapeCast S1x128 (m ((c.tc : Thread nD τ).loc main_arg3)) shapeCasts_S128_S1x128) := by
  refine ((W6_arr m ρ c 2).trans (Reg1.final (V5 m ρ) c)).trans ?_
  rw [agg1, bias1]

/-- After the third launch: the product with the second weights. -/
theorem prod2 : W7 m ρ c (Proc.devRef .tc main_v47)
    = Gcn.mm (Gcn.rowBiasRelu (agg128 (rowT (m ((c.tc : Thread nD τ).loc main_arg1))) (colT (m ((c.tc : Thread nD τ).loc main_arg1))) (normT (m ((c.tc : Thread nD τ).loc main_arg1)))
          (Gcn.mm (m ((c.tc : Thread nD τ).loc main_arg0)) (m ((c.tc : Thread nD τ).loc main_arg2))))
        (shapeCast S1x128 (m ((c.tc : Thread nD τ).loc main_arg3)) shapeCasts_S128_S1x128))
      (m ((c.tc : Thread nD τ).loc main_arg4)) := by
  refine ((W7_arr m ρ c 2).trans (Reg2.final (V6 m ρ) c)).trans ?_
  rw [hidden, arg4_6]

/-- The result buffer after the last launch: the two layers of the arguments. -/
theorem result : W9 m ρ c (Proc.devRef .tc main_v62)
    = layers (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine ((W9_arr m ρ c 2).trans (Reg3.final (V8 m ρ) c)).trans ?_
  have h60 : V8 m ρ c main_v60 = agg40 (W7 m ρ c (Proc.devRef .tc main_v5)) (W7 m ρ c (Proc.devRef .tc main_v6))
      (W7 m ρ c (Proc.devRef .tc main_v30)) (W7 m ρ c (Proc.devRef .tc main_v47)) := Stage.last_agg (W7 m ρ c)
  have h61 : V8 m ρ c main_v61 = shapeCast S1x40 (W7 m ρ c (Proc.devRef .tc main_arg5)) shapeCasts_S40_S1x40 := Stage.last_bias (W7 m ρ c)
  rw [h60, h61, row7, col7, norm7, prod2, arg5_7]
  rfl

end Cert.KernelIdeal.KValue

end
-- ==== Proof.HostR.lean ====
/-
  The host side of the graph convolution, as functions of whole arrays at the ideal instance: from the edge list to the
  source and target node of every edge (the given edges, then one self loop per node), the degree of every node
  (a scatter-add of ones over the targets), its inverse square root where the degree is positive, the normalisation
  norm(e) = dinv(src e) · 1 · dinv(dst e) of every edge, and the aggregation of a feature array H over the edges:
  agg(H)(v) = Σ over the edges e with dst e = v of norm(e) · H(src e), as a gather of rows, a product with the broadcast
  norm and a scatter-add into zeros. Each is the composition of the program's own host operations, in the program's order.
-/
import proofs.«140125_j5557687681608_1_alg».proof.Proof.Gen.ReferenceIdeal
import Idealize.ShloMosaic.PureOps.Ideal

noncomputable section

namespace Cert.ReferenceIdeal.HostFn

open Cert.ReferenceIdeal Cert.ReferenceIdeal.Facts₀ Idealize.ShloMosaic

/-- The given edges' source nodes: row 0 of the edge list. -/
def srcOf (e : IVec S2x800000 32) : IVec S800000 32 :=
  shapeCast _ (extractStridedSlice S1x800000 ![0, 0] e slices_S2x800000_S1x800000_0_0) shapeCasts_S1x800000_S800000
/-- The given edges' target nodes: row 1 of the edge list. -/
def dstOf (e : IVec S2x800000 32) : IVec S800000 32 :=
  shapeCast _ (extractStridedSlice S1x800000 ![1, 0] e slices_S2x800000_S1x800000_1_0) shapeCasts_S1x800000_S800000
/-- One self loop per node appended to a list of nodes. -/
def withLoops (v : IVec S800000 32) : IVec S850000 32 :=
  concatenate S850000 0 [⟨S800000, v⟩, ⟨S50000, (iotaInDim S50000 32 0)⟩] concatenates_S800000_S50000_S850000_d0
/-- Every edge's source node. -/
def rowT (e : IVec S2x800000 32) : IVec S850000 32 := withLoops (srcOf e)
/-- Every edge's target node. -/
def colT (e : IVec S2x800000 32) : IVec S850000 32 := withLoops (dstOf e)

/-- A list of nodes as a one-column index array. -/
def asColumn (v : IVec S850000 32) : IVec S850000x1 32 := broadcastInDim S850000x1 ![0] bcast_S850000_S850000x1_0 v
/-- A list of nodes with the negative ones moved up by the node count, as a one-column index array. -/
def wrapped (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- One per edge. -/
def ones : FVec Ideal S850000 .f32 := broadcastInDim S850000 ![] bcast_S_S850000 (constant (F := Ideal) S_ .f32 0x3F800000#32)
/-- Every node's degree: the number of edges that end in it. -/
def deg (col : IVec S850000 32) : FVec Ideal S50000 .f32 :=
  Host.scatterAdd (F := Ideal) scatter_S50000_S850000x1_S850000_n_0_0_1
    (broadcastInDim S50000 ![] bcast_S_S50000 (constant (F := Ideal) S_ .f32 0x00000000#32)) (asColumn col) ones
/-- Every node's inverse square root of its degree where the degree is positive, zero elsewhere. -/
def dinv (col : IVec S850000 32) : FVec Ideal S50000 .f32 :=
  select (cmpf (F := Ideal) .ogt (deg col) (broadcastInDim S50000 ![] bcast_S_S50000 (constant (F := Ideal) S_ .f32 0x00000000#32)))
    (Host.rsqrt (F := Ideal) (deg col)) (broadcastInDim S50000 ![] bcast_S_S50000 (id (constant (F := Ideal) S_ .f32 0x00000000#32)))
/-- Every edge's normalisation. -/
def normOf (row col : IVec S850000 32) : FVec Ideal S850000 .f32 :=
  mulf (mulf (Host.gather gather_S50000_S850000x1_S850000_n_0_n_n_0_1_1 (dinv col) (wrapped row)) ones)
    (Host.gather gather_S50000_S850000x1_S850000_n_0_n_n_0_1_1 (dinv col) (wrapped col))
/-- Every edge's normalisation, from the edge list. -/
def normT (e : IVec S2x800000 32) : FVec Ideal S850000 .f32 := normOf (rowT e) (colT e)

/-- The aggregation of 128 features per node over the edges. -/
def agg128 (row col : IVec S850000 32) (norm : FVec Ideal S850000 .f32) (H : FVec Ideal S50000x128 .f32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32)) (asColumn col)
    (mulf (Host.gather gather_S50000x128_S850000x1_S850000x128_1_0_n_n_0_1_1128 H (wrapped row))
      (broadcastInDim S850000x128 ![0, 1] bcast_S850000x1_S850000x128_0_1 (broadcastInDim S850000x1 ![0] bcast_S850000_S850000x1_0 norm)))
/-- The aggregation of 40 features per node over the edges. -/
def agg40 (row col : IVec S850000 32) (norm : FVec Ideal S850000 .f32) (H : FVec Ideal S50000x40 .f32) : FVec Ideal S50000x40 .f32 :=
  Host.scatterAdd (F := Ideal) scatter_S50000x40_S850000x1_S850000x40_1_0_0_1
    (broadcastInDim S50000x40 ![] bcast_S_S50000x40 (constant (F := Ideal) S_ .f32 0x00000000#32)) (asColumn col)
    (mulf (Host.gather gather_S50000x40_S850000x1_S850000x40_1_0_n_n_0_1_140 H (wrapped row))
      (broadcastInDim S850000x40 ![0, 1] bcast_S850000x1_S850000x40_0_1 (broadcastInDim S850000x1 ![0] bcast_S850000_S850000x1_0 norm)))

end Cert.ReferenceIdeal.HostFn

end
-- ==== Proof.RefValue.lean ====
/-
  The reference's result as a composition of its stages. The reference computes, on the host, the two layers of the graph
  convolution one after the other: the product of the features with the first weights, its aggregation over the edges,
  the first bias broadcast to every row and added, the maximum with zero, the product with the second weights, its
  aggregation over the same edges, the second bias broadcast and added. Its run's composed term is exactly that
  composition of the edge-list functions and the two aggregations with the reference's own products and bias stages.
-/
import proofs.«140125_j5557687681608_1_alg».proof.Proof.RefRun
import proofs.«140125_j5557687681608_1_alg».proof.Proof.HostR

noncomputable section

namespace Cert.ReferenceIdeal.RefValue

open Cert.ReferenceIdeal Cert.ReferenceIdeal.Facts₀ Cert.ReferenceIdeal.HostFn
open Idealize.ShloMosaic Idealize.ShloMosaic.TcCoe Idealize.SL.Sem

/-- The reference's bias stage of the first layer: the bias laid down as a row, the row repeated over all nodes, added. -/
def biasStage128 (A : FVec Ideal S50000x128 .f32) (b : FVec Ideal S128 .f32) : FVec Ideal S50000x128 .f32 :=
  addf A (broadcastInDim S50000x128 ![0, 1] bcast_S1x128_S50000x128_0_1 (broadcastInDim S1x128 ![1] bcast_S128_S1x128_1 b))
/-- The reference's maximum with zero. -/
def reluStage (A : FVec Ideal S50000x128 .f32) : FVec Ideal S50000x128 .f32 :=
  maximumf A (broadcastInDim S50000x128 ![] bcast_S_S50000x128 (constant (F := Ideal) S_ .f32 0x00000000#32))
/-- The reference's bias stage of the second layer. -/
def biasStage40 (A : FVec Ideal S50000x40 .f32) (b : FVec Ideal S40 .f32) : FVec Ideal S50000x40 .f32 :=
  addf A (broadcastInDim S50000x40 ![0, 1] bcast_S1x40_S50000x40_0_1 (broadcastInDim S1x40 ![1] bcast_S40_S1x40_1 b))

/-- The two layers, over the reference's own products. -/
def layers (X : FVec Ideal S50000x128 .f32) (e : IVec S2x800000 32) (W1 : FVec Ideal S128x128 .f32) (b1 : FVec Ideal S128 .f32)
    (W2 : FVec Ideal S128x40 .f32) (b2 : FVec Ideal S40 .f32) : FVec Ideal S50000x40 .f32 :=
  biasStage40 (agg40 (rowT e) (colT e) (normT e)
    (Host.dotGeneral (F := Ideal) dot_S50000x128_S128x40_S50000x40_1_0_0_1_n_n none
      (reluStage (biasStage128 (agg128 (rowT e) (colT e) (normT e)
        (Host.dotGeneral (F := Ideal) dot_S50000x128_S128x128_S50000x128_1_0_0_1_n_n none X W1)) b1)) W2)) b2

set_option maxRecDepth 8192 in
/-- The run's composed term is the two layers of the arguments. -/
theorem res_eq (m : (ℓ : Loc nD τ sig) → Buf (Elt Ideal) ℓ) (c : Dev nD) :
    ValueP.res_main_v65 (F := Ideal) m c
      = layers (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold ValueP.res_main_v65
  rfl

end Cert.ReferenceIdeal.RefValue

end
-- ==== Proof.HostEq.lean ====
/-
  The two programs print the same host operations under their own names: the functions of the edge list and the two
  aggregations built from the kernel program's operations are those built from the reference's.
-/
import proofs.«140125_j5557687681608_1_alg».proof.Proof.HostK
import proofs.«140125_j5557687681608_1_alg».proof.Proof.HostR

noncomputable section

namespace Cert.HostEq

open Idealize.ShloMosaic

theorem rowT_eq (e : IVec Cert.ReferenceIdeal.S2x800000 32) : Cert.ReferenceIdeal.HostFn.rowT e = Cert.KernelIdeal.HostFn.rowT e := rfl
theorem colT_eq (e : IVec Cert.ReferenceIdeal.S2x800000 32) : Cert.ReferenceIdeal.HostFn.colT e = Cert.KernelIdeal.HostFn.colT e := rfl
theorem normOf_eq (row col : IVec Cert.ReferenceIdeal.S850000 32) :
    Cert.ReferenceIdeal.HostFn.normOf row col = Cert.KernelIdeal.HostFn.normOf row col := rfl
theorem normT_eq (e : IVec Cert.ReferenceIdeal.S2x800000 32) : Cert.ReferenceIdeal.HostFn.normT e = Cert.KernelIdeal.HostFn.normT e := rfl
theorem agg128_eq (row col : IVec Cert.ReferenceIdeal.S850000 32) (norm : FVec Ideal Cert.ReferenceIdeal.S850000 .f32)
    (H : FVec Ideal Cert.ReferenceIdeal.S50000x128 .f32) :
    Cert.ReferenceIdeal.HostFn.agg128 row col norm H = Cert.KernelIdeal.HostFn.agg128 row col norm H := rfl
theorem agg40_eq (row col : IVec Cert.ReferenceIdeal.S850000 32) (norm : FVec Ideal Cert.ReferenceIdeal.S850000 .f32)
    (H : FVec Ideal Cert.ReferenceIdeal.S50000x40 .f32) :
    Cert.ReferenceIdeal.HostFn.agg40 row col norm H = Cert.KernelIdeal.HostFn.agg40 row col norm H := rfl

end Cert.HostEq

end
-- ==== Proof.LibRowInDim.lean ====
/-
  Two host broadcasts around a unit row, read at an entry: a vector laid down as one row
  (`broadcast_in_dim` with dims [1], [b] to [1, b]) and one row stretched over a rows (dims [0, 1], [1, b] to [a, b]).
-/
import Idealize.ShloMosaic.Lib.Pipeline.Value
import Idealize.ShloMosaic.Lib.ValueIdx

namespace Cert.LibRowInDim

open Idealize.ShloMosaic Idealize.ShloMosaic.ValueIdx

variable {α : Type}

/-- A [b] array broadcast to [1, b] along dims [1] reads, at (u, k), the operand at k. -/
theorem bcast_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- A [1, b] array broadcast to [a, b] along dims [0, 1] reads, at (p, k), the operand's one row at column k. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply ![0, 1] h x (ix2 p k) (ix2 (0 : Fin 1) k) fun ax => ?_
  match ax with
  | ⟨0, _⟩ => rfl
  | ⟨1, _⟩ =>
    show k.val = if b = 1 then 0 else k.val
    split
    · have := k.isLt; omega
    · rfl

end Cert.LibRowInDim
-- ==== Proof.Bridge.lean ====
/-
  Where the two programs differ, they compute the same arrays over the extended reals.

  The reference's two products are the host's dot_general; the kernel's are products computed block by block, which the
  region modules read as `Gcn.mm`. Entry (p, q) of either is the sum over k of left (p, k) · right (k, q).
  The reference's bias stages broadcast the bias vector into a row, the row over all nodes, and add (then, in the first
  layer, take the maximum with a broadcast zero); the kernel's take the bias reshaped into a row and add it inside the
  kernel, which the region modules read as `Gcn.rowBias` / `Gcn.rowBiasRelu`. Entry (p, q) of either is A (p, q) + b (q)
  (and the maximum of that with the value of the zero word).
-/
import proofs.«140125_j5557687681608_1_alg».proof.Proof.RefValue
import proofs.«140125_j5557687681608_1_alg».proof.Proof.Gen.KernelIdeal
import proofs.«140125_j5557687681608_1_alg».proof.Proof.Spec
import proofs.«140125_j5557687681608_1_alg».proof.Proof.LibMatmulAt
import proofs.«140125_j5557687681608_1_alg».proof.Proof.LibRowInDim
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx
open Cert.ReferenceIdeal Cert.ReferenceIdeal.Facts₀

/-! ## The reference's products -/

/-- The first layer's contraction. -/
abbrev D1 : DotDims S50000x128 S128x128 S50000x128 := dot_S50000x128_S128x128_S50000x128_1_0_0_1_n_n
/-- The second layer's contraction. -/
abbrev D2 : DotDims S50000x128 S128x40 S50000x40 := dot_S50000x128_S128x40_S50000x40_1_0_0_1_n_n

theorem lhs1_0 (i : S50000x128.Idx) (q : D1.contr.Idx) : (D1.lhsIdx i q 0).val = (i 0).val := by
  unfold DotDims.lhsIdx
  rw [dif_neg (show ¬(0 : Fin S50000x128.rank) ∈ D1.lhsBatch by decide), dif_pos (show (0 : Fin S50000x128.rank) ∈ D1.lhsNonContracting by decide)]
  rfl
theorem lhs1_1 (i : S50000x128.Idx) (q : D1.contr.Idx) : (D1.lhsIdx i q 1).val = (q ⟨0, by decide⟩).val :=
  D1.lhsIdx_val_of_single rfl i q
theorem rhs1_0 (i : S50000x128.Idx) (q : D1.contr.Idx) : (D1.rhsIdx i q 0).val = (q ⟨0, by decide⟩).val :=
  D1.rhsIdx_val_of_single rfl i q
theorem rhs1_1 (i : S50000x128.Idx) (q : D1.contr.Idx) : (D1.rhsIdx i q 1).val = (i 1).val := by
  unfold DotDims.rhsIdx
  rw [dif_neg (show ¬(1 : Fin S128x128.rank) ∈ D1.rhsBatch by decide), dif_pos (show (1 : Fin S128x128.rank) ∈ D1.rhsNonContracting by decide)]
  rfl

theorem lhs2_0 (i : S50000x40.Idx) (q : D2.contr.Idx) : (D2.lhsIdx i q 0).val = (i 0).val := by
  unfold DotDims.lhsIdx
  rw [dif_neg (show ¬(0 : Fin S50000x128.rank) ∈ D2.lhsBatch by decide), dif_pos (show (0 : Fin S50000x128.rank) ∈ D2.lhsNonContracting by decide)]
  rfl
theorem lhs2_1 (i : S50000x40.Idx) (q : D2.contr.Idx) : (D2.lhsIdx i q 1).val = (q ⟨0, by decide⟩).val :=
  D2.lhsIdx_val_of_single rfl i q
theorem rhs2_0 (i : S50000x40.Idx) (q : D2.contr.Idx) : (D2.rhsIdx i q 0).val = (q ⟨0, by decide⟩).val :=
  D2.rhsIdx_val_of_single rfl i q
theorem rhs2_1 (i : S50000x40.Idx) (q : D2.contr.Idx) : (D2.rhsIdx i q 1).val = (i 1).val := by
  unfold DotDims.rhsIdx
  rw [dif_neg (show ¬(1 : Fin S128x40.rank) ∈ D2.rhsBatch by decide), dif_pos (show (1 : Fin S128x40.rank) ∈ D2.rhsNonContracting by decide)]
  rfl

/-- The reference's first product is the matrix product. -/
theorem dot1_eq (X : FVec Ideal S50000x128 .f32) (W : FVec Ideal S128x128 .f32) :
    Host.dotGeneral (F := Ideal) D1 none X W = Gcn.mm X W := by
  funext i
  obtain ⟨p, q, rfl⟩ : ∃ (p : Fin 50000) (q : Fin 128), i = ix2 p q := ⟨i 0, i 1, eq_ix2 i⟩
  rw [Gcn.mm_apply]
  exact MatmulAt.dotGeneral_ix2 D1 rfl rfl lhs1_0 lhs1_1 rhs1_0 rhs1_1 none X W p q

/-- The reference's second product is the matrix product. -/
theorem dot2_eq (X : FVec Ideal S50000x128 .f32) (W : FVec Ideal S128x40 .f32) :
    Host.dotGeneral (F := Ideal) D2 none X W = Gcn.mm X W := by
  funext i
  obtain ⟨p, q, rfl⟩ : ∃ (p : Fin 50000) (q : Fin 40), i = ix2 p q := ⟨i 0, i 1, eq_ix2 i⟩
  rw [Gcn.mm_apply]
  exact MatmulAt.dotGeneral_ix2 D2 rfl rfl lhs2_0 lhs2_1 rhs2_0 rhs2_1 none X W p q

/-! ## The bias stages -/

/-- The first layer's bias stage and maximum with zero: the bias as a reshaped row, added to every row, and the maximum
    with the value of the zero word. -/
theorem relu_bias_eq (A : FVec Ideal S50000x128 .f32) (b : FVec Ideal S128 .f32) :
    RefValue.reluStage (RefValue.biasStage128 A b)
      = Gcn.rowBiasRelu A (shapeCast Cert.KernelIdeal.S1x128 b Cert.KernelIdeal.Facts₀.shapeCasts_S128_S1x128) := by
  funext i
  obtain ⟨p, q, rfl⟩ : ∃ (p : Fin 50000) (q : Fin 128), i = ix2 p q := ⟨i 0, i 1, eq_ix2 i⟩
  rw [Gcn.rowBiasRelu_apply, shapeCast_a_1a_apply]
  unfold RefValue.reluStage RefValue.biasStage128
  rw [maximumf_apply, addf_apply, LibRowInDim.bcast_1b_ab_apply, LibRowInDim.bcast_b_1b_apply]
  rfl

/-- The second layer's bias stage: the bias as a reshaped row, added to every row. -/
theorem bias40_eq (A : FVec Ideal S50000x40 .f32) (b : FVec Ideal S40 .f32) :
    RefValue.biasStage40 A b
      = Gcn.rowBias A (shapeCast Cert.KernelIdeal.S1x40 b Cert.KernelIdeal.Facts₀.shapeCasts_S40_S1x40) := by
  funext i
  obtain ⟨p, q, rfl⟩ : ∃ (p : Fin 50000) (q : Fin 40), i = ix2 p q := ⟨i 0, i 1, eq_ix2 i⟩
  rw [Gcn.rowBias_apply, shapeCast_a_1a_apply]
  unfold RefValue.biasStage40
  rw [addf_apply, LibRowInDim.bcast_1b_ab_apply, LibRowInDim.bcast_b_1b_apply]

end Cert.Bridge

end
-- ==== Proof.lean ====
/-
  A two-layer graph convolution, out = Â·relu(Â·X·W1 + b1)·W2 + b2 with Â the symmetrically normalised adjacency (self
  loops added) applied as gather · scale · scatter-add over the edges. The kernel program computes the two products X·W1
  and H·W2 and the two bias stages in four blocked kernels and keeps the normalisation and the aggregation on the host;
  the reference computes everything on the host. Over the extended reals the two are the same function of the arguments:

  * each blocked product is the matrix product of the whole arrays (every block is the restriction of the product to its
    rows, and the blocks cover the result), and so is the host's dot_general: entry (p, q) is Σₖ left (p, k) · right (k, q);
  * each blocked bias stage is A (p, q) + b (q) (then the maximum with zero), and so is the host's broadcast-and-add;
  * the normalisation and the aggregation are the same host operations in both programs, applied to equal arrays.

  No law of arithmetic beyond reading both sides at an index is used, so the inputs' finiteness is never opened.
  The three frames are the generated ones (the reference's is its run with the result dropped); the idealisation rewrote
  nothing, so `preserves` is trivial.
-/
import proofs.«140125_j5557687681608_1_alg».proof.Defs
import proofs.«140125_j5557687681608_1_alg».proof.Proof.Gen.Kernel
import proofs.«140125_j5557687681608_1_alg».proof.Proof.Gen.Kernel.Skeleton
import proofs.«140125_j5557687681608_1_alg».proof.Proof.Gen.Kernel.Launch
import proofs.«140125_j5557687681608_1_alg».proof.Proof.Gen.Kernel.Points
import proofs.«140125_j5557687681608_1_alg».proof.Proof.Gen.Kernel.Frame
import proofs.«140125_j5557687681608_1_alg».proof.Proof.Gen.KernelIdeal
import proofs.«140125_j5557687681608_1_alg».proof.Proof.Gen.KernelIdeal.Skeleton
import proofs.«140125_j5557687681608_1_alg».proof.Proof.Gen.KernelIdeal.Launch
import proofs.«140125_j5557687681608_1_alg».proof.Proof.Gen.KernelIdeal.Points
import proofs.«140125_j5557687681608_1_alg».proof.Proof.Gen.KernelIdeal.Frame
import proofs.«140125_j5557687681608_1_alg».proof.Proof.Gen.ReferenceIdeal
import proofs.«140125_j5557687681608_1_alg».proof.Proof.Gen.Pre_finite_inputs
import proofs.«140125_j5557687681608_1_alg».proof.Proof.KernelRun
import proofs.«140125_j5557687681608_1_alg».proof.Proof.KernelValue
import proofs.«140125_j5557687681608_1_alg».proof.Proof.RefRun
import proofs.«140125_j5557687681608_1_alg».proof.Proof.RefValue
import proofs.«140125_j5557687681608_1_alg».proof.Proof.HostEq
import proofs.«140125_j5557687681608_1_alg».proof.Proof.Bridge
import Idealize.ShloMosaic.Adequacy
import Idealize.ShloMosaic.Init

noncomputable section

namespace Cert.Proof

open Idealize.ShloMosaic Idealize.ShloMosaic.TcCoe Idealize.SL.Sem

/-- The two layers over the reference's products and bias stages are the two layers over the kernel's. -/
theorem layers_eq (X : FVec Ideal Cert.ReferenceIdeal.S50000x128 .f32) (e : IVec Cert.ReferenceIdeal.S2x800000 32)
    (W1 : FVec Ideal Cert.ReferenceIdeal.S128x128 .f32) (b1 : FVec Ideal Cert.ReferenceIdeal.S128 .f32)
    (W2 : FVec Ideal Cert.ReferenceIdeal.S128x40 .f32) (b2 : FVec Ideal Cert.ReferenceIdeal.S40 .f32) :
    Cert.ReferenceIdeal.RefValue.layers X e W1 b1 W2 b2 = Cert.KernelIdeal.KValue.layers X e W1 b1 W2 b2 := by
  unfold Cert.ReferenceIdeal.RefValue.layers Cert.KernelIdeal.KValue.layers
  rw [Cert.Bridge.dot1_eq, Cert.Bridge.relu_bias_eq, Cert.Bridge.dot2_eq, Cert.Bridge.bias40_eq,
    Cert.HostEq.rowT_eq, Cert.HostEq.colT_eq, Cert.HostEq.normT_eq, Cert.HostEq.agg128_eq, Cert.HostEq.agg40_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the two layers of the arguments in their result
    buffers. -/
theorem algebraic : Cert.algebraic_KernelIdeal_ReferenceIdeal := by
  intro m ρ m' ρ' _ hagree
  refine ⟨fun c => Cert.KernelIdeal.KValue.layers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result m ρ c), (h c).2⟩)
      (Cert.KernelIdeal.RunValue.run_main m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]
    exact layers_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
